-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x16 : Shape := ⟨2, ![2048, 16]⟩
abbrev S1x2048 : Shape := ⟨2, ![1, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x16 : S_.BroadcastsInDim S2048x16 (![] : Fin 0 → Fin S2048x16.rank)
  reducesTo_S2048x16_S_d0_1 : S2048x16.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x2048 .f32) (main_v13 : IVec S_ 1) (main_v16 : IVec S2048x16 1) : IVec S_ 1 :=
  let main_c_5 : IVec S_ 1 := constantI S_ 1 1#1
  let main_v17 : IVec S_ 1 := (fun x v => Host.reduce IntOp.andi x v reducesTo_S2048x16_S_d0_1 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  main_v23

def fn {F : FTy → Type} [FloatOps F] (main_arg0 : FVec F S4x4096x2048 .f32) (main_arg1 : FVec F S4x4096x2048 .f32) (main_arg2 : FVec F S2048x16 .f32) (main_arg3 : FVec F S2048x16 .f32) (main_arg4 : FVec F S1x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S4x4096x2048 .f32 := Host.absf main_arg1
  let main_cst_0 : FVec F S_ .f32 := constant S_ .f32 0x7F800000#32
  let main_v5 : FVec F S4x4096x2048 .f32 := broadcastInDim S4x4096x2048 ![] bcast_S_S4x4096x2048 main_cst_0
  let main_v6 : IVec S4x4096x2048 1 := cmpf .olt main_v4 main_v5
  let main_c_1 : IVec S_ 1 := constantI S_ 1 1#1
  let main_v7 : IVec S_ 1 := (fun x v => Host.reduce IntOp.andi x v reducesTo_S4x4096x2048_S_d0_1_2 h_S_) main_v6 main_c_1
  let main_v8 : IVec S_ 1 := andi main_v3 main_v7
  let main_v9 : FVec F S2048x16 .f32 := Host.absf main_arg2
  let main_cst_2 : FVec F S_ .f32 := constant S_ .f32 0x7F800000#32
  let main_v10 : FVec F S2048x16 .f32 := broadcastInDim S2048x16 ![] bcast_S_S2048x16 main_cst_2
  let main_v11 : IVec S2048x16 1 := cmpf .olt main_v9 main_v10
  let main_c_3 : IVec S_ 1 := constantI S_ 1 1#1
  let main_v12 : IVec S_ 1 := (fun x v => Host.reduce IntOp.andi x v reducesTo_S2048x16_S_d0_1 h_S_) main_v11 main_c_3
  let main_v13 : IVec S_ 1 := andi main_v8 main_v12
  let main_v14 : FVec F S2048x16 .f32 := Host.absf main_arg3
  let main_cst_4 : FVec F S_ .f32 := constant S_ .f32 0x7F800000#32
  let main_v15 : FVec F S2048x16 .f32 := broadcastInDim S2048x16 ![] bcast_S_S2048x16 main_cst_4
  let main_v16 : IVec S2048x16 1 := cmpf .olt main_v14 main_v15
  fn_part1 (F := F) main_arg4 main_v13 main_v16
-- ==== Kernel.lean ====
abbrev S4x4096x2048 : Shape := ⟨3, ![4, 4096, 2048]⟩
abbrev S2048x16 : Shape := ⟨2, ![2048, 16]⟩
abbrev S1x2048 : Shape := ⟨2, ![1, 2048]⟩
abbrev S1x512x2048 : Shape := ⟨3, ![1, 512, 2048]⟩
abbrev S512x2048 : Shape := ⟨2, ![512, 2048]⟩
abbrev S512x16 : Shape := ⟨2, ![512, 16]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S2048x16, .f32⟩
  | .hbm, ⟨3, _⟩ => ⟨S2048x16, .f32⟩
  | .hbm, ⟨4, _⟩ => ⟨S1x2048, .f32⟩
  | .hbm, ⟨5, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S2048x16, .f32⟩
  | .local _ .vmem, ⟨5, _⟩ => ⟨S2048x16, .f32⟩
  | .local _ .vmem, ⟨6, _⟩ => ⟨S1x2048, .f32⟩
  | .local _ .vmem, ⟨7, _⟩ => ⟨S1x512x2048, .f32⟩
  | .local _ .vmem, ⟨8, _⟩ => ⟨S1x512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  inb_S2048x16_S2048x16_0_0 : ∀ a, (![0, 0] : Fin 2 → Nat) a + S2048x16.size a ≤ S2048x16.size a
  h_S2048x16 : 0 < S2048x16.numel
  inb_S1x2048_S1x2048_0_0 : ∀ a, (![0, 0] : Fin 2 → Nat) a + S1x2048.size a ≤ S1x2048.size a
  h_S1x2048 : 0 < S1x2048.numel
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  dot_S512x2048_S2048x16_S512x16_1_0_0_1_n_n_wf : DotDims.WF S512x2048 S2048x16 S512x16 [1] [0] [0] [1] [] []
  dot_S512x16_S2048x16_S512x2048_1_1_0_0_n_n_wf : DotDims.WF S512x16 S2048x16 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x4096x2048.size a
  hwx0_0 : ∀ i : grid0.Coords, EltTy.bits .f32 = 32 ∨ (Rect.block (s := S4x4096x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S4x4096x2048.size a
  hwx0_1 : ∀ i : grid0.Coords, EltTy.bits .f32 = 32 ∨ (Rect.block (s := S4x4096x2048) S1x512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S2048x16.size a
  hwx0_2 : ∀ i : grid0.Coords, EltTy.bits .f32 = 32 ∨ (Rect.block (s := S2048x16) S2048x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x16.size a ≤ S2048x16.size a
  hwx0_3 : ∀ i : grid0.Coords, EltTy.bits .f32 = 32 ∨ (Rect.block (s := S2048x16) S2048x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S4x4096x2048.size a
  hwx0_5 : ∀ i : grid0.Coords, EltTy.bits .f32 = 32 ∨ (Rect.block (s := S4x4096x2048) S1x512x2048.size (cc0_transform_5 i) (hinb0_5 i)).WholeWords (EltTy.packing .f32)

variable [Facts₀]

def dot_S512x2048_S2048x16_S512x16_1_0_0_1_n_n : DotDims S512x2048 S2048x16 S512x16 where
  lhsContracting := [1]
  rhsContracting := [0]
  lhsNonContracting := [0]
  rhsNonContracting := [1]
  lhsBatch := []
  rhsBatch := []
  wf := dot_S512x2048_S2048x16_S512x16_1_0_0_1_n_n_wf
def dot_S512x16_S2048x16_S512x2048_1_1_0_0_n_n : DotDims S512x16 S2048x16 S512x2048 where
  lhsContracting := [1]
  rhsContracting := [1]
  lhsNonContracting := [0]
  rhsNonContracting := [0]
  lhsBatch := []
  rhsBatch := []
  wf := dot_S512x16_S2048x16_S512x2048_1_1_0_0_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x16 : Shape := ⟨2, ![2048, 16]⟩
abbrev S1x2048 : Shape := ⟨2, ![1, 2048]⟩
abbrev S4x4096x16 : Shape := ⟨3, ![4, 4096, 16]⟩
abbrev S4x4096x1 : Shape := ⟨3, ![4, 4096, 1]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S2048x16, .f32⟩
  | .hbm, ⟨3, _⟩ => ⟨S2048x16, .f32⟩
  | .hbm, ⟨4, _⟩ => ⟨S1x2048, .f32⟩
  | .hbm, ⟨5, _⟩ => ⟨S4x4096x16, .f32⟩
  | .hbm, ⟨6, _⟩ => ⟨S4x4096x16, .f32⟩
  | .hbm, ⟨7, _⟩ => ⟨S4x4096x2048, .f32⟩
  | .hbm, ⟨8, _⟩ => ⟨S4x4096x1, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x2048, .f32⟩
  | .hbm, ⟨21, _⟩ => ⟨S4x4096x2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x4096x2048, .f32⟩
  | .hbm, ⟨26, _⟩ => ⟨S4x4096x2048, .f32⟩
  | .hbm, ⟨27, _⟩ => ⟨S_, .f32⟩
  | .hbm, ⟨28, _⟩ => ⟨S4x4096x2048, .f32⟩
  | .hbm, ⟨29, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v14 : Ref sig .tc := ⟨.hbm, 29, rfl⟩

abbrev nD : Nat := 1
abbrev τ : Topo := Topo.v7x

variable {F : FTy → Type} [FloatOps F]

class Facts₀ : Prop where
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  bcast_S_S4x4096x2048 : S_.BroadcastsInDim S4x4096x2048 (![] : Fin 0 → Fin S4x4096x2048.rank)
  dot_S4x4096x2048_S2048x16_S4x4096x16_2_0_01_1_n_n_wf : DotDims.WF S4x4096x2048 S2048x16 S4x4096x16 [2] [0] [0, 1] [1] [] []
  dot_S4x4096x16_S2048x16_S4x4096x2048_2_1_01_0_n_n_wf : DotDims.WF S4x4096x16 S2048x16 S4x4096x2048 [2] [1] [0, 1] [0] [] []
  dot_S4x4096x2048_S1x2048_S4x4096x1_2_1_01_0_n_n_wf : DotDims.WF S4x4096x2048 S1x2048 S4x4096x1 [2] [1] [0, 1] [0] [] []

variable [Facts₀]

def dot_S4x4096x2048_S2048x16_S4x4096x16_2_0_01_1_n_n : DotDims S4x4096x2048 S2048x16 S4x4096x16 where
  lhsContracting := [2]
  rhsContracting := [0]
  lhsNonContracting := [0, 1]
  rhsNonContracting := [1]
  lhsBatch := []
  rhsBatch := []
  wf := dot_S4x4096x2048_S2048x16_S4x4096x16_2_0_01_1_n_n_wf
def dot_S4x4096x16_S2048x16_S4x4096x2048_2_1_01_0_n_n : DotDims S4x4096x16 S2048x16 S4x4096x2048 where
  lhsContracting := [2]
  rhsContracting := [1]
  lhsNonContracting := [0, 1]
  rhsNonContracting := [0]
  lhsBatch := []
  rhsBatch := []
  wf := dot_S4x4096x16_S2048x16_S4x4096x2048_2_1_01_0_n_n_wf
def dot_S4x4096x2048_S1x2048_S4x4096x1_2_1_01_0_n_n : DotDims S4x4096x2048 S1x2048 S4x4096x1 where
  lhsContracting := [2]
  rhsContracting := [1]
  lhsNonContracting := [0, 1]
  rhsNonContracting := [0]
  lhsBatch := []
  rhsBatch := []
  wf := dot_S4x4096x2048_S1x2048_S4x4096x1_2_1_01_0_n_n_wf

class Facts : Prop extends Facts₀ where

variable [Facts]
-- ==== Proof.Spec.lean ====
/-
  The function both programs compute, index by index, on the extended reals.

  For a batch `b`, a position `s` and a channel `d` the result is

      clip ( (∑ r, (∑ k, v[b,s,k] · U[k,r])² · W[d,r]) · (1 + σ(∑ k, x[b,s,k] · Vw[0,k])) )

  where `σ z = 1 / (1 + e^(-z))` and `clip y = min 5 (max (-5) y)`.  The entry depends on row `(b, s)` of `v` and of `x`
  only, so it is written as a function `entry` of those two rows; `G` reads the rows off the arrays.  The three float
  literals (1, -5, 5) are kept as their words: the same words occur on both sides and are never evaluated, except the
  `1` inside the reference's spelt-out `σ`, which has to be the number one for `1 / (1 + e^(-z))` to be `σ z`.
-/
import Idealize.ShloMosaic.PureOps.Ideal
import Idealize.ShloMosaic.PureOps.Ideal.Laws
import Idealize.ShloMosaic.PureOps.IdealRules
import Idealize.ShloMosaic.Lib.ValueIdx

noncomputable section

open scoped BigOperators

namespace Cert.Christoffel

open Idealize.ShloMosaic Idealize.ShloMosaic.ValueIdx

/-- The shapes of the arrays: `v`, `x` and the result; `U` and `W`; `Vw`. -/
abbrev SBig : Shape := ⟨3, ![4, 4096, 2048]⟩
abbrev SMat : Shape := ⟨2, ![2048, 16]⟩
abbrev SRow : Shape := ⟨2, ![1, 2048]⟩

/-- The words of the three literals, read as extended reals. -/
abbrev one : EReal := Ideal.ofBits .f32 0x3F800000#32
abbrev lo : EReal := Ideal.ofBits .f32 0xC0A00000#32
abbrev hi : EReal := Ideal.ofBits .f32 0x40A00000#32

/-- The word `0x3F800000` is the number one. -/
theorem one_eq : one = 1 := IdealRules.sign_bit.ideal_onePat .f32

/-- Component `r` of a row of `v` projected by `U`. -/
def proj (vrow : Fin 2048 → EReal) (U : Fin 2048 → Fin 16 → EReal) (r : Fin 16) : EReal :=
  ∑ k : Fin 2048, vrow k * U k r

/-- The squared projection carried back to channel `d` by `W`. -/
def curv (vrow : Fin 2048 → EReal) (U W : Fin 2048 → Fin 16 → EReal) (d : Fin 2048) : EReal :=
  ∑ r : Fin 16, (proj vrow U r * proj vrow U r) * W d r

/-- One plus the logistic function of a row of `x` against `Vw`. -/
def modulation (xrow Vw : Fin 2048 → EReal) : EReal :=
  one + Ideal.logistic (∑ k : Fin 2048, xrow k * Vw k)

/-- The result at channel `d` of the row whose `v` entries are `vrow` and whose `x` entries are `xrow`. -/
def entry (vrow xrow : Fin 2048 → EReal) (U W : Fin 2048 → Fin 16 → EReal) (Vw : Fin 2048 → EReal) (d : Fin 2048) : EReal :=
  min hi (max lo (curv vrow U W d * modulation xrow Vw))

/-- The whole result array as one function of the five argument arrays. -/
def G (v x : SBig.Idx → EReal) (U W : SMat.Idx → EReal) (Vw : SRow.Idx → EReal) : SBig.Idx → EReal := fun i =>
  entry (fun k => v (ix3 (i 0) (i 1) k)) (fun k => x (ix3 (i 0) (i 1) k))
    (fun k r => U (ix2 k r)) (fun d r => W (ix2 d r)) (fun k => Vw (ix2 (0 : Fin 1) k)) (i 2)

/-- `G` at an index given by its three coordinates. -/
theorem G_ix3 (v x : SBig.Idx → EReal) (U W : SMat.Idx → EReal) (Vw : SRow.Idx → EReal) (b : Fin 4) (s : Fin 4096) (d : Fin 2048) :
    G v x U W Vw (ix3 b s d)
      = entry (fun k => v (ix3 b s k)) (fun k => x (ix3 b s k))
          (fun k r => U (ix2 k r)) (fun d r => W (ix2 d r)) (fun k => Vw (ix2 (0 : Fin 1) k)) d := rfl

/-- The logistic function spelt out with the literal word for one, as the reference has it: `1 / (1 + e^(-z))`. -/
theorem logistic_spelt (z : EReal) : Ideal.div one (one + Ideal.exp (-z)) = Ideal.logistic z := by
  rw [one_eq]; rfl

end Cert.Christoffel

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.Body.lean ====
/-
  The kernel body's stored value, read at one index.

  The body works on one block of 512 rows: `x0` and `x1` are the block's rows of `v` and of `x` (laid `[1, 512, 2048]`),
  `x2`, `x3`, `x4` are `U`, `W`, `Vw` whole.  At row `p` and channel `d` of the block the stored value is `entry` of row `p`
  of the two blocks.  The steps that are not pointwise are read one by one: a matrix product into a zero accumulator is
  the sum over the contracted coordinate; a sum along the lanes is the sum over the lane coordinate; a `[1, 2048]` row
  broadcast down 512 rows, a length-512 vector re-laid as a column, and a column broadcast across 2048 lanes keep the
  entries they name.  Rounding to bf16 on the way into a product is the identity on the extended reals.
-/
import proofs.«133135_j3822520893670_2_alg».proof.Proof.Gen.KernelIdeal.Skeleton
import proofs.«133135_j3822520893670_2_alg».proof.Proof.Spec
import proofs.«133135_j3822520893670_2_alg».proof.Proof.LibBroadcast
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Christoffel.Body

open Idealize.ShloMosaic Idealize.ShloMosaic.ValueIdx Cert.KernelIdeal Cert.KernelIdeal.Gen Cert.Christoffel Cert.Layout

/-- The two products' dimension records: rows × contraction times contraction × columns, and rows × contraction times
    the transpose of columns × contraction. -/
abbrev D1 : DotDims S512x2048 S2048x16 S512x16 := dot_S512x2048_S2048x16_S512x16_1_0_0_1_n_n
abbrev D2 : DotDims S512x16 S2048x16 S512x2048 := dot_S512x16_S2048x16_S512x2048_1_1_0_0_n_n

theorem D1_lhs0 (i : S512x16.Idx) (q : D1.contr.Idx) : (D1.lhsIdx i q 0).val = (i 0).val := by
  unfold DotDims.lhsIdx
  rw [dif_neg (show ¬(0 : Fin S512x2048.rank) ∈ D1.lhsBatch by decide), dif_pos (show (0 : Fin S512x2048.rank) ∈ D1.lhsNonContracting by decide)]
  rfl
theorem D1_lhs1 (i : S512x16.Idx) (q : D1.contr.Idx) : (D1.lhsIdx i q 1).val = (q ⟨0, by decide⟩).val :=
  D1.lhsIdx_val_of_single rfl i q
theorem D1_rhs0 (i : S512x16.Idx) (q : D1.contr.Idx) : (D1.rhsIdx i q 0).val = (q ⟨0, by decide⟩).val :=
  D1.rhsIdx_val_of_single rfl i q
theorem D1_rhs1 (i : S512x16.Idx) (q : D1.contr.Idx) : (D1.rhsIdx i q 1).val = (i 1).val := by
  unfold DotDims.rhsIdx
  rw [dif_neg (show ¬(1 : Fin S2048x16.rank) ∈ D1.rhsBatch by decide), dif_pos (show (1 : Fin S2048x16.rank) ∈ D1.rhsNonContracting by decide)]
  rfl

/-- The first product at `(p, r)`: the sum over `k` of the left factor at `(p, k)` times the right at `(k, r)`. -/
theorem first_product (a : FVec Ideal S512x2048 .bf16) (b : FVec Ideal S2048x16 .bf16) (p : Fin 512) (r : Fin 16) :
    matmul D1 none a b (constant (F := Ideal) S512x16 .f32 0x00000000#32) (ix2 p r) = ∑ k : Fin 2048, a (ix2 p k) * b (ix2 k r) := by
  refine (Ideal.matmul_constant_zero_apply D1 none a b (ix2 p r)).trans ?_
  rw [← Equiv.sum_comp (contrEquiv1 D1 2048 rfl rfl).symm]
  refine Finset.sum_congr rfl fun k _ => ?_
  have hk := contrEquiv1_symm_val D1 2048 rfl rfl k
  have el : D1.lhsIdx (ix2 p r) ((contrEquiv1 D1 2048 rfl rfl).symm k) = ix2 p k := funext fun ax => Fin.ext (by
    match ax with
    | ⟨0, _⟩ => exact D1_lhs0 _ _
    | ⟨1, _⟩ => exact (D1_lhs1 _ _).trans hk)
  have er : D1.rhsIdx (ix2 p r) ((contrEquiv1 D1 2048 rfl rfl).symm k) = ix2 k r := funext fun ax => Fin.ext (by
    match ax with
    | ⟨0, _⟩ => exact (D1_rhs0 _ _).trans hk
    | ⟨1, _⟩ => exact D1_rhs1 _ _)
  rw [el, er]

theorem D2_lhs0 (i : S512x2048.Idx) (q : D2.contr.Idx) : (D2.lhsIdx i q 0).val = (i 0).val := by
  unfold DotDims.lhsIdx
  rw [dif_neg (show ¬(0 : Fin S512x16.rank) ∈ D2.lhsBatch by decide), dif_pos (show (0 : Fin S512x16.rank) ∈ D2.lhsNonContracting by decide)]
  rfl
theorem D2_lhs1 (i : S512x2048.Idx) (q : D2.contr.Idx) : (D2.lhsIdx i q 1).val = (q ⟨0, by decide⟩).val :=
  D2.lhsIdx_val_of_single rfl i q
theorem D2_rhs0 (i : S512x2048.Idx) (q : D2.contr.Idx) : (D2.rhsIdx i q 0).val = (i 1).val := by
  unfold DotDims.rhsIdx
  rw [dif_neg (show ¬(0 : Fin S2048x16.rank) ∈ D2.rhsBatch by decide), dif_pos (show (0 : Fin S2048x16.rank) ∈ D2.rhsNonContracting by decide)]
  rfl
theorem D2_rhs1 (i : S512x2048.Idx) (q : D2.contr.Idx) : (D2.rhsIdx i q 1).val = (q ⟨0, by decide⟩).val :=
  D2.rhsIdx_val_of_single rfl i q

/-- The second product at `(p, d)`: the sum over `r` of the left factor at `(p, r)` times the right at `(d, r)`. -/
theorem second_product (a : FVec Ideal S512x16 .bf16) (b : FVec Ideal S2048x16 .bf16) (p : Fin 512) (d : Fin 2048) :
    matmul D2 none a b (constant (F := Ideal) S512x2048 .f32 0x00000000#32) (ix2 p d) = ∑ r : Fin 16, a (ix2 p r) * b (ix2 d r) := by
  refine (Ideal.matmul_constant_zero_apply D2 none a b (ix2 p d)).trans ?_
  rw [← Equiv.sum_comp (contrEquiv1 D2 16 rfl rfl).symm]
  refine Finset.sum_congr rfl fun r _ => ?_
  have hr := contrEquiv1_symm_val D2 16 rfl rfl r
  have el : D2.lhsIdx (ix2 p d) ((contrEquiv1 D2 16 rfl rfl).symm r) = ix2 p r := funext fun ax => Fin.ext (by
    match ax with
    | ⟨0, _⟩ => exact D2_lhs0 _ _
    | ⟨1, _⟩ => exact (D2_lhs1 _ _).trans hr)
  have er : D2.rhsIdx (ix2 p d) ((contrEquiv1 D2 16 rfl rfl).symm r) = ix2 d r := funext fun ax => Fin.ext (by
    match ax with
    | ⟨0, _⟩ => exact D2_rhs0 _ _
    | ⟨1, _⟩ => exact (D2_rhs1 _ _).trans hr)
  rw [el, er]

/-- A sum along the lanes of a `[512, 2048]` array, at row `p`: the sum over the lane coordinate. -/
theorem lane_sum (src : FVec Ideal S512x2048 .f32) (h : S512x2048.Reduces [1] S512) (hφ : FKind.Formats .f32)
    (hacc : (0x00000000#32 : BitVec 32) = FKind.add.neutral .f32 hφ) (p : Fin 512) :
    multiReduction .add [1] S512 src 0x00000000#32 h hφ hacc (ix1 p) = ∑ k : Fin 2048, src (ix2 p k) := by
  refine (Ideal.multiReduction_add_single src 0x00000000#32 h hφ hacc (ix1 p)).trans ?_
  refine Finset.sum_congr rfl fun k _ => congrArg src ?_
  exact funext fun ax => Fin.ext (by
    match ax with
    | ⟨0, _⟩ => rfl
    | ⟨1, _⟩ => rfl)

/-- THE STORED VALUE at row `p`, channel `d` of a block: `entry` of row `p` of the block of `v` and of the block of `x`.
    The clip and the factor `1 + σ` are pointwise; the left factor is the second product over the squared first product;
    the argument of `σ` is the lane sum of the block of `x` times the row `Vw` broadcast down the rows. -/
theorem stored_apply (x0 x1 : Vec Ideal S1x512x2048 .f32) (x2 x3 : Vec Ideal S2048x16 .f32) (x4 : Vec Ideal S1x2048 .f32)
    (u : Fin 1) (p : Fin 512) (d : Fin 2048) :
    k0_pay1 (F := Ideal) x0 x2 x3 x1 x4 (ix3 u p d)
      = entry (fun k => x0 (ix3 (0 : Fin 1) p k)) (fun k => x1 (ix3 (0 : Fin 1) p k)) (fun k r => x2 (ix2 k r)) (fun d r => x3 (ix2 d r))
          (fun k => x4 (ix2 (0 : Fin 1) k)) d := by
  unfold k0_pay1
  refine (shapeCast_ab_1ab_apply _ _ u p d).trans ?_
  unfold entry curv proj modulation
  refine congrArg₂ min rfl (congrArg₂ max rfl (congrArg₂ (· * ·) ?_ ?_))
  · refine (second_product _ _ p d).trans ?_
    refine Finset.sum_congr rfl fun r _ => ?_
    refine congrArg₂ (· * ·) ?_ rfl
    have hproj : ∀ r : Fin 16, matmul D1 none (truncf .bf16 (shapeCast S512x2048 x0 shapeCasts_S1x512x2048_S512x2048) bitsLt_bf16_f32)
        (truncf .bf16 x2 bitsLt_bf16_f32) (constant (F := Ideal) S512x16 .f32 0x00000000#32) (ix2 p r)
          = ∑ k : Fin 2048, x0 (ix3 (0 : Fin 1) p k) * x2 (ix2 k r) := fun r => by
      refine (first_product _ _ p r).trans ?_
      refine Finset.sum_congr rfl fun k _ => ?_
      refine congrArg₂ (· * ·) ?_ rfl
      exact shapeCast_1ab_ab_apply _ _ p k
    exact congrArg₂ (· * ·) (hproj r) (hproj r)
  · refine (broadcastTo_a1_ab_apply _ _ p d).trans ?_
    refine congrArg₂ (· + ·) rfl (congrArg Ideal.logistic ?_)
    refine (shapeCast_col_apply _ _ p).trans ?_
    refine (lane_sum _ _ _ _ p).trans ?_
    refine Finset.sum_congr rfl fun k _ => ?_
    refine congrArg₂ (· * ·) ?_ ?_
    · exact shapeCast_1ab_ab_apply _ _ p k
    · exact broadcastTo_1b_ab_apply _ _ p k

/-- THE STORED VALUE IS `G`: when row `p` of the two blocks is row `(b, s)` of the arrays `A0` and `A1` and the three
    small operands are the arrays `A2`, `A3`, `A4`, the stored value at `(u, p, d)` is `G` of the arrays at `(b, s, d)`. -/
theorem stored_eq_G (A0 A1 : SBig.Idx → EReal) (A2 A3 : SMat.Idx → EReal) (A4 : SRow.Idx → EReal)
    (x0 x1 : Vec Ideal S1x512x2048 .f32) (x2 x3 : Vec Ideal S2048x16 .f32) (x4 : Vec Ideal S1x2048 .f32)
    (u : Fin 1) (p : Fin 512) (d : Fin 2048) (b : Fin 4) (s : Fin 4096)
    (h0 : ∀ k : Fin 2048, x0 (ix3 (0 : Fin 1) p k) = A0 (ix3 b s k))
    (h1 : ∀ k : Fin 2048, x1 (ix3 (0 : Fin 1) p k) = A1 (ix3 b s k))
    (h2 : ∀ (k : Fin 2048) (r : Fin 16), x2 (ix2 k r) = A2 (ix2 k r))
    (h3 : ∀ (e : Fin 2048) (r : Fin 16), x3 (ix2 e r) = A3 (ix2 e r))
    (h4 : ∀ k : Fin 2048, x4 (ix2 (0 : Fin 1) k) = A4 (ix2 (0 : Fin 1) k)) :
    k0_pay1 (F := Ideal) x0 x2 x3 x1 x4 (ix3 u p d) = G A0 A1 A2 A3 A4 (ix3 b s d) := by
  rw [stored_apply, G_ix3]
  simp only [h0, h1, h2, h3, h4]

end Cert.Christoffel.Body

end
-- ==== Proof.Blocks.lean ====
/-
  From blocks to the array: after the run the result array is `G` of the argument arrays.

  The grid has 4 × 8 points; point `(b, q)` works on rows `512·q … 512·q + 511` of batch `b`.  The windows of `v`, `x`
  and of the result move together (block index `(b, q, 0)`), the windows of `U`, `W`, `Vw` stay at block `(0, 0)`.  So
  what point `t` writes back is block `t` of `G`: row `p` of the blocks of `v` and `x` is row `(b, 512·q + p)` of the arrays,
  which is all an entry of `G` depends on.  Every index `(b, s, d)` lies in the block of point `(b, s / 512)`, so the
  blocks cover the array.
-/
import proofs.«133135_j3822520893670_2_alg».proof.Proof.Gen.KernelIdeal.Value
import proofs.«133135_j3822520893670_2_alg».proof.Proof.Body
import Idealize.ShloMosaic.Lib.Pipeline.Value

noncomputable section

namespace Cert.Christoffel.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Christoffel

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The result array as `G` of the argument arrays at launch. -/
abbrev result (c : Dev nD) : S4x4096x2048.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

/-- The block indices, decided over the 32 grid points: the windows of `v` and `x` sit where the result's window sits,
    the windows of `U`, `W`, `Vw` at block zero, and the result's block index is `(b, q, 0)` with `b ≤ 3`, `q ≤ 7`. -/
theorem index_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = win0_5.index t (1 : Fin 3)
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) ≤ 3 ∧ win0_5.index t (1 : Fin 3) ≤ 7 ∧ win0_5.index t (2 : Fin 3) = 0 :=
  (by decide +kernel : ∀ t : Fin grid0.N, _)

/-- Every block `(b, q, 0)` is some point's. -/
theorem index_onto : ∀ (b : Fin 4) (q : Fin 8), ∃ t : Fin cfg0.N, win0_5.index t = ![b.val, q.val, 0] :=
  (by decide +kernel : ∀ (b : Fin 4) (q : Fin 8), ∃ t : Fin grid0.N, win0_5.index t = ![b.val, q.val, 0])

/-- An entry of the block of `v` at point `t` is the array's entry at block index × block size + the coordinate inside. -/
theorem v_block (c : Dev nD) (t : Fin cfg0.N) (y : S1x512x2048.Idx) (i : S4x4096x2048.Idx)
    (h0 : win0_0.index t (0 : Fin 3) * 1 + 1 * (y 0).val = (i 0).val)
    (h1 : win0_0.index t (1 : Fin 3) * 512 + 1 * (y 1).val = (i 1).val)
    (h2 : win0_0.index t (2 : Fin 3) * 2048 + 1 * (y 2).val = (i 2).val) :
    (iblk m c 0 t : Vec Ideal S1x512x2048 .f32) y = (m ((c : Thread nD τ).loc main_arg0) : S4x4096x2048.Idx → EReal) i := by
  unfold iblk
  rw [View.read_apply]
  show V m c main_arg0 _ = m ((c : Thread nD τ).loc main_arg0) _
  unfold V
  refine congrArg _ (funext fun a => Fin.ext ?_)
  match a with
  | ⟨0, _⟩ => exact h0
  | ⟨1, _⟩ => exact h1
  | ⟨2, _⟩ => exact h2

/-- The same for the block of `x`. -/
theorem x_block (c : Dev nD) (t : Fin cfg0.N) (y : S1x512x2048.Idx) (i : S4x4096x2048.Idx)
    (h0 : win0_1.index t (0 : Fin 3) * 1 + 1 * (y 0).val = (i 0).val)
    (h1 : win0_1.index t (1 : Fin 3) * 512 + 1 * (y 1).val = (i 1).val)
    (h2 : win0_1.index t (2 : Fin 3) * 2048 + 1 * (y 2).val = (i 2).val) :
    (iblk m c 1 t : Vec Ideal S1x512x2048 .f32) y = (m ((c : Thread nD τ).loc main_arg1) : S4x4096x2048.Idx → EReal) i := by
  unfold iblk
  rw [View.read_apply]
  show V m c main_arg1 _ = m ((c : Thread nD τ).loc main_arg1) _
  unfold V
  refine congrArg _ (funext fun a => Fin.ext ?_)
  match a with
  | ⟨0, _⟩ => exact h0
  | ⟨1, _⟩ => exact h1
  | ⟨2, _⟩ => exact h2

/-- The block of `U` is `U`. -/
theorem U_block (c : Dev nD) (t : Fin cfg0.N) (y : S2048x16.Idx)
    (h0 : win0_2.index t (0 : Fin 2) = 0) (h1 : win0_2.index t (1 : Fin 2) = 0) :
    (iblk m c 2 t : Vec Ideal S2048x16 .f32) y = (m ((c : Thread nD τ).loc main_arg2) : S2048x16.Idx → EReal) y := by
  unfold iblk
  rw [View.read_apply]
  show V m c main_arg2 _ = m ((c : Thread nD τ).loc main_arg2) _
  unfold V
  refine congrArg _ (funext fun a => Fin.ext ?_)
  match a with
  | ⟨0, _⟩ => show win0_2.index t (0 : Fin 2) * 2048 + 1 * (y 0).val = (y 0).val; omega
  | ⟨1, _⟩ => show win0_2.index t (1 : Fin 2) * 16 + 1 * (y 1).val = (y 1).val; omega

/-- The block of `W` is `W`. -/
theorem W_block (c : Dev nD) (t : Fin cfg0.N) (y : S2048x16.Idx)
    (h0 : win0_3.index t (0 : Fin 2) = 0) (h1 : win0_3.index t (1 : Fin 2) = 0) :
    (iblk m c 3 t : Vec Ideal S2048x16 .f32) y = (m ((c : Thread nD τ).loc main_arg3) : S2048x16.Idx → EReal) y := by
  unfold iblk
  rw [View.read_apply]
  show V m c main_arg3 _ = m ((c : Thread nD τ).loc main_arg3) _
  unfold V
  refine congrArg _ (funext fun a => Fin.ext ?_)
  match a with
  | ⟨0, _⟩ => show win0_3.index t (0 : Fin 2) * 2048 + 1 * (y 0).val = (y 0).val; omega
  | ⟨1, _⟩ => show win0_3.index t (1 : Fin 2) * 16 + 1 * (y 1).val = (y 1).val; omega

/-- The block of `Vw` is `Vw`. -/
theorem Vw_block (c : Dev nD) (t : Fin cfg0.N) (y : S1x2048.Idx)
    (h0 : win0_4.index t (0 : Fin 2) = 0) (h1 : win0_4.index t (1 : Fin 2) = 0) :
    (iblk m c 4 t : Vec Ideal S1x2048 .f32) y = (m ((c : Thread nD τ).loc main_arg4) : S1x2048.Idx → EReal) y := by
  unfold iblk
  rw [View.read_apply]
  show V m c main_arg4 _ = m ((c : Thread nD τ).loc main_arg4) _
  unfold V
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 2048 + 1 * (y 1).val = (y 1).val; omega

/-- WHAT POINT `t` WRITES BACK is block `t` of the result. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold out0_5
  rw [View.canon_unit_zero zeros3]
  simp only [View.ld_unit_zero (S := S1x512x2048) zeros3, View.ld_unit_zero (S := S2048x16) zeros2, View.ld_unit_zero (S := S1x2048) zeros2]
  obtain ⟨a0, a1, a2, b0, b1, b2, u0, u1, w0, w1, r0, r1, hb, hq, hz⟩ := index_facts t
  refine funext fun (j : S1x512x2048.Idx) => ?_
  obtain ⟨u, p, d, rfl⟩ : ∃ (u : Fin 1) (p : Fin 512) (d : Fin 2048), j = ix3 u p d := ⟨j 0, j 1, j 2, eq_ix3 j⟩
  have hu : u.val = 0 := by omega
  have hp : p.val < 512 := p.isLt
  have hd : d.val < 2048 := d.isLt
  have hbb : win0_5.index t (0 : Fin 3) < 4 := by omega
  have hss : win0_5.index t (1 : Fin 3) * 512 + p.val < 4096 := by omega
  have hi : ((cfg0.win 5).blk t).view.emb (ix3 u p d)
      = ix3 (⟨win0_5.index t (0 : Fin 3), hbb⟩ : Fin 4) (⟨win0_5.index t (1 : Fin 3) * 512 + p.val, hss⟩ : Fin 4096) d :=
    funext fun a => Fin.ext (by
      match a with
      | ⟨0, _⟩ => show win0_5.index t (0 : Fin 3) * 1 + 1 * u.val = win0_5.index t (0 : Fin 3); omega
      | ⟨1, _⟩ => show win0_5.index t (1 : Fin 3) * 512 + 1 * p.val = win0_5.index t (1 : Fin 3) * 512 + p.val; omega
      | ⟨2, _⟩ => show win0_5.index t (2 : Fin 3) * 2048 + 1 * d.val = d.val; omega)
  show k0_pay1 (iblk m c 0 t) (iblk m c 2 t) (iblk m c 3 t) (iblk m c 1 t) (iblk m c 4 t) (ix3 u p d)
    = result m c (((cfg0.win 5).blk t).view.emb (ix3 u p d))
  rw [hi]
  exact Body.stored_eq_G _ _ _ _ _ (iblk m c 0 t) (iblk m c 1 t) (iblk m c 2 t) (iblk m c 3 t) (iblk m c 4 t) u p d _ _
    (fun k => v_block m c t (ix3 (0 : Fin 1) p k) _
      (by show win0_0.index t (0 : Fin 3) * 1 + 1 * 0 = win0_5.index t (0 : Fin 3); omega)
      (by show win0_0.index t (1 : Fin 3) * 512 + 1 * p.val = win0_5.index t (1 : Fin 3) * 512 + p.val; omega)
      (by show win0_0.index t (2 : Fin 3) * 2048 + 1 * k.val = k.val; omega))
    (fun k => x_block m c t (ix3 (0 : Fin 1) p k) _
      (by show win0_1.index t (0 : Fin 3) * 1 + 1 * 0 = win0_5.index t (0 : Fin 3); omega)
      (by show win0_1.index t (1 : Fin 3) * 512 + 1 * p.val = win0_5.index t (1 : Fin 3) * 512 + p.val; omega)
      (by show win0_1.index t (2 : Fin 3) * 2048 + 1 * k.val = k.val; omega))
    (fun k r => U_block m c t (ix2 k r) u0 u1)
    (fun e r => W_block m c t (ix2 e r) w0 w1)
    (fun k => Vw_block m c t (ix2 (0 : Fin 1) k) r0 r1)

/-- An index of the array is in point `t`'s block iff each coordinate is in the block's range on its axis. -/
theorem mem_blk (t : Fin cfg0.N) (i : S4x4096x2048.Idx) :
    i ∈ ((cfg0.win 5).blk t).view.set ↔ ∀ a : Fin 3, win0_5.index t a * S1x512x2048.size a ≤ (i a).val ∧ (i a).val < win0_5.index t a * S1x512x2048.size a + S1x512x2048.size a := by
  show i ∈ ((View.whole main_v0).slice (win0_5.rect t)).set ↔ _
  rw [View.set_slice_whole, Rect.mem_set_unit]
  exact Iff.rfl

/-- THE BLOCKS COVER THE ARRAY: index `(b, s, d)` is in the block of the point whose block index is `(b, s / 512, 0)`. -/
theorem cover (i : S4x4096x2048.Idx) : ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 2048 := (i 2).isLt
  obtain ⟨t, ht⟩ := index_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

/-- THE ARRAY after the run is the result. -/
theorem final (c : Dev nD) : (dats m 0 c).arrAt 5 cfg0.N = result m c :=
  (dats m 0 c).arrAt_eq_of_cover 5 (result m c) (fun t _ => flushed_eq m c t) cover

/-- The kernel's run, read: the result array ends at `G` of the argument arrays, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.Christoffel.Blocks

end
-- ==== Proof.RefValue.lean ====
/-
  The reference's result is `G`.

  Read one operation at a time, the reference's entry at `(b, s, d)` is the clip of the product of two factors: the sum
  over `r` of the squared sum over `k` of `v[b,s,k] · U[k,r]`, times `W[d,r]`; and one plus `1 / (1 + e^(-z))` with `z` the
  sum over `k` of `x[b,s,k] · Vw[0,k]`, broadcast along the channels.  The index functions composed along the way name
  the entries `(b, s, k)`, `(k, r)`, `(d, r)` and `(0, k)`; the spelt-out quotient is the logistic function.
-/
import proofs.«133135_j3822520893670_2_alg».proof.Proof.Gen.ReferenceIdeal.Read
import proofs.«133135_j3822520893670_2_alg».proof.Proof.Spec

noncomputable section

open scoped BigOperators

namespace Cert.Christoffel.Ref

open Idealize.ShloMosaic Idealize.ShloMosaic.ValueIdx Cert.ReferenceIdeal Cert.ReferenceIdeal.Read Cert.Christoffel

theorem v_index (b : Fin 4) (s : Fin 4096) (d : Fin 2048) (r : Fin 16) (k : Fin 2048) :
    lidx_main_v0 (lidx_main_v2 (ix3 b s d) r) k = ix3 b s k :=
  funext fun a => Fin.ext (by match a with | ⟨0, _⟩ => rfl | ⟨1, _⟩ => rfl | ⟨2, _⟩ => rfl)

theorem U_index (b : Fin 4) (s : Fin 4096) (d : Fin 2048) (r : Fin 16) (k : Fin 2048) :
    ridx_main_v0 (lidx_main_v2 (ix3 b s d) r) k = ix2 k r :=
  funext fun a => Fin.ext (by match a with | ⟨0, _⟩ => rfl | ⟨1, _⟩ => rfl)

theorem W_index (b : Fin 4) (s : Fin 4096) (d : Fin 2048) (r : Fin 16) :
    ridx_main_v2 (ix3 b s d) r = ix2 d r :=
  funext fun a => Fin.ext (by match a with | ⟨0, _⟩ => rfl | ⟨1, _⟩ => rfl)

theorem x_index (b : Fin 4) (s : Fin 4096) (d : Fin 2048) (k : Fin 2048) :
    lidx_main_v3 (idx_main_v12 (ix3 b s d)) k = ix3 b s k :=
  funext fun a => Fin.ext (by match a with | ⟨0, _⟩ => rfl | ⟨1, _⟩ => rfl | ⟨2, _⟩ => rfl)

theorem Vw_index (b : Fin 4) (s : Fin 4096) (d : Fin 2048) (k : Fin 2048) :
    ridx_main_v3 (idx_main_v12 (ix3 b s d)) k = ix2 (0 : Fin 1) k :=
  funext fun a => Fin.ext (by match a with | ⟨0, _⟩ => rfl | ⟨1, _⟩ => rfl)

/-- THE REFERENCE IS `G`: its last stage, as a function of the five argument arrays, is `G` of them. -/
theorem stage_eq (v x : (⟨S4x4096x2048, .f32⟩ : BufTy).Contents (Elt Ideal)) (U W : (⟨S2048x16, .f32⟩ : BufTy).Contents (Elt Ideal))
    (Vw : (⟨S1x2048, .f32⟩ : BufTy).Contents (Elt Ideal)) :
    val_main_v14 (F := Ideal) v x U W Vw = G v x U W Vw := by
  funext i
  obtain ⟨b, s, d, rfl⟩ : ∃ (b : Fin 4) (s : Fin 4096) (d : Fin 2048), i = ix3 b s d := ⟨i 0, i 1, i 2, eq_ix3 i⟩
  rw [G_ix3, val_main_v14_apply, val_main_call0_v4_apply, val_main_call0_v3_apply, val_main_cst_3_apply,
    val_main_call0_v2_apply, val_main_call0_v1_apply, val_main_call0_v0_apply, val_main_cst_2_apply,
    val_main_v13_apply, val_main_v2_apply, val_main_v12_apply, val_main_v11_apply, val_main_v10_apply, val_main_cst_1_apply,
    val_main_v9_apply, val_main_v8_apply, val_main_cst_0_apply, val_main_v7_apply, val_main_v6_apply, val_main_cst_apply,
    val_main_v5_apply, val_main_v4_apply, val_main_v3_apply]
  simp only [val_main_v1_apply, val_main_v0_apply, v_index, U_index, W_index, x_index, Vw_index]
  unfold entry curv proj modulation
  rw [← logistic_spelt]
  rfl

end Cert.Christoffel.Ref

end
-- ==== Proof.lean ====
/-
  The kernel and its reference compute one function on the extended reals.

  Both take `v, x : [4, 4096, 2048]`, `U, W : [2048, 16]`, `Vw : [1, 2048]` and return, at `(b, s, d)`,

      min 5 (max (-5) ( (∑ r, (∑ k, v[b,s,k] · U[k,r])² · W[d,r]) · (1 + σ(∑ k, x[b,s,k] · Vw[0,k])) ))

  with `σ` the logistic function.  The kernel computes it block by block, 512 rows of one batch at a time: two matrix
  products into zero accumulators (the operands rounded to bf16, which is the identity on the extended reals), a sum along
  the lanes for the argument of `σ`, and the clip.  The reference computes it with three contractions over the whole
  arrays and `σ` spelt out as `1 / (1 + e^(-z))`.  A product into a zero accumulator and a contraction are the same
  finite sum, the lane sum is the third contraction, and `1 / (1 + e^(-z))` is `σ z` by definition: no law beyond
  `0 + y = y` is used, so the finiteness of the inputs is never opened.

  The parts: `Spec` states the function `G`; `Body` reads the kernel body's stored value at an index; `Blocks` carries
  that from blocks to the whole array and restates the kernel's run; `RefValue` shows the reference's last stage is
  `G`.  The three frames are the generated ones (the reference's is its run with the result dropped), and the kernel's
  idealization rewrote nothing, so there is nothing to preserve.
-/
import proofs.«133135_j3822520893670_2_alg».proof.Defs
import proofs.«133135_j3822520893670_2_alg».proof.Proof.Gen.Kernel
import proofs.«133135_j3822520893670_2_alg».proof.Proof.Gen.Kernel.Skeleton
import proofs.«133135_j3822520893670_2_alg».proof.Proof.Gen.Kernel.Launch
import proofs.«133135_j3822520893670_2_alg».proof.Proof.Gen.Kernel.Points
import proofs.«133135_j3822520893670_2_alg».proof.Proof.Gen.Kernel.Frame
import proofs.«133135_j3822520893670_2_alg».proof.Proof.Gen.KernelIdeal
import proofs.«133135_j3822520893670_2_alg».proof.Proof.Gen.KernelIdeal.Skeleton
import proofs.«133135_j3822520893670_2_alg».proof.Proof.Gen.KernelIdeal.Launch
import proofs.«133135_j3822520893670_2_alg».proof.Proof.Gen.KernelIdeal.Points
import proofs.«133135_j3822520893670_2_alg».proof.Proof.Gen.KernelIdeal.Frame
import proofs.«133135_j3822520893670_2_alg».proof.Proof.Gen.ReferenceIdeal
import proofs.«133135_j3822520893670_2_alg».proof.Proof.Gen.Pre_finite_inputs
import proofs.«133135_j3822520893670_2_alg».proof.Proof.Gen.KernelIdeal.Value
import proofs.«133135_j3822520893670_2_alg».proof.Proof.Gen.ReferenceIdeal.Run
import proofs.«133135_j3822520893670_2_alg».proof.Proof.Gen.ReferenceIdeal.Read
import proofs.«133135_j3822520893670_2_alg».proof.Proof.Blocks
import proofs.«133135_j3822520893670_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's result array ends at `G` of its arguments and the
    reference's at its last stage of its own, which is `G` of them: the same array. -/
theorem algebraic : Cert.algebraic_KernelIdeal_ReferenceIdeal := by
  intro m ρ m' ρ' _ hagree
  refine ⟨fun c => Cert.Christoffel.Blocks.result m c, Cert.Christoffel.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.Christoffel.Ref.stage_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
